-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x1 : Shape := ⟨2, ![262144, 1]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_

variable [Facts]

def fn {F : FTy → Type} [FloatOps F] (main_arg0 : FVec F S262144x128 .f32) (main_arg1 : FVec F S262144x128 .f32) (main_arg2 : FVec F S262144x1 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x1 .f32 := Host.absf main_arg2
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  main_v13
-- ==== Kernel.lean ====
abbrev S262144x128 : Shape := ⟨2, ![262144, 128]⟩
abbrev S262144x1 : Shape := ⟨2, ![262144, 1]⟩
abbrev S16x128 : Shape := ⟨2, ![16, 128]⟩
abbrev S8192x128 : Shape := ⟨2, ![8192, 128]⟩
abbrev S8192x1 : Shape := ⟨2, ![8192, 1]⟩
abbrev S8x128 : Shape := ⟨2, ![8, 128]⟩
abbrev S8192 : Shape := ⟨1, ![8192]⟩
abbrev S1x8192x1 : Shape := ⟨3, ![1, 8192, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 25
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x1, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x1, .f32⟩
  | .local _ .vmem, ⟨5, _⟩ => ⟨S8192x1, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  natLt_1_32 : 1 < 32
  inb_S8192x1_S8192x1_0_0 : ∀ a, (![0, 0] : Fin 2 → Nat) a + S8192x1.size a ≤ S8192x1.size a
  h_S8192x1 : 0 < S8192x1.numel
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S262144x1.size a
  hwx0_2 : ∀ i : grid0.Coords, EltTy.bits .f32 = 32 ∨ (Rect.block (s := S262144x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x1 : Shape := ⟨2, ![262144, 1]⟩
abbrev S_ : Shape := ⟨0, ![]⟩
abbrev S262144 : Shape := ⟨1, ![262144]⟩

abbrev nBuf : Space → Nat
  | .hbm => 27
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x1, .f32⟩
  | .hbm, ⟨3, _⟩ => ⟨S262144x128, .f32⟩
  | .hbm, ⟨4, _⟩ => ⟨S262144x128, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S_, .f32⟩
  | .hbm, ⟨9, _⟩ => ⟨S262144, .f32⟩
  | .hbm, ⟨10, _⟩ => ⟨S262144, .i1⟩
  | .hbm, ⟨11, _⟩ => ⟨S262144, .f32⟩
  | .hbm, ⟨12, _⟩ => ⟨S262144x1, .f32⟩
  | .hbm, ⟨13, _⟩ => ⟨S262144x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  reducesTo_S262144x1_S_d0_1 : S262144x1.ReducesTo [0, 1] S_

variable [Facts₀]

class Facts : Prop extends Facts₀ where

variable [Facts]
-- ==== Proof.KernelPieces.lean ====
/-
  What one grid step leaves in each of the three accumulator blocks, as a value.

  The kernel walks 32 row blocks of 8192 rows. At a step it forms, for its block, three scalars — the number of
  rows whose squared distance exceeds the squared margin, the sum of the block's `desire` entries, and the sum of
  `desire` over the rows that exceed — and adds each, broadcast over an (8, 128) tile, to a running tile. At the
  first step of a run of 16 the running tile is the zero tile just stored (case A); at the other fifteen it is the
  tile the previous step left (case B). Each lemma below says that the tile a step leaves is the step's one
  covering store: the payload applied to the step's input blocks and to the running tile.
-/
import proofs.«174065_j23441931502276_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The stores and loads of a whole (8, 128) or (8192, ·) buffer start at offset zero on both axes. -/
theorem hz : (![0, 0] : Fin 2 → Nat) = fun _ => 0 := funext fun a => by fin_cases a <;> rfl

/-- A later step of a run: the count tile becomes the running tile plus this block's count. -/
theorem out_B_3 (c : Dev nD) (i : grid0.Coords) (a2 : Memref sig .tc .vmem S8192x128 .f32) (h2 : a2.IsWhole) (a3 : Memref sig .tc .vmem S8192x128 .f32) (h3 : a3.IsWhole) (a4 : Memref sig .tc .vmem S8192x1 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : ¬cond0_0 i)
    (x0 x1 : Vec F S8192x128 .f32) (x2 : Vec F S8192x1 .f32) (xo3 xo4 xo5 : Vec F S8x128 .f32) :
    out0_B_3 c i a2 h2 a3 h3 a4 h4 a5 h5 a6 h6 a7 h7 hc x0 x1 x2 xo3 xo4 xo5 = k0_pay9 x0 x1 xo3 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  try sl_unfold_words
  rw [View.canon_unit_zero hz]
  simp only [View.readAt_eq_ld, h2.read_unread, h3.read_unread, h4.read_unread, h5.read_unread, h6.read_unread, h7.read_unread, View.ld_unit_zero (S := S8x128) hz, View.ld_unit_zero (S := S8192x128) hz, View.ld_unit_zero (S := S8192x1) hz]

/-- A later step of a run: the `desire` tile becomes the running tile plus this block's sum of `desire`. -/
theorem out_B_4 (c : Dev nD) (i : grid0.Coords) (a2 : Memref sig .tc .vmem S8192x128 .f32) (h2 : a2.IsWhole) (a3 : Memref sig .tc .vmem S8192x128 .f32) (h3 : a3.IsWhole) (a4 : Memref sig .tc .vmem S8192x1 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : ¬cond0_0 i)
    (x0 x1 : Vec F S8192x128 .f32) (x2 : Vec F S8192x1 .f32) (xo3 xo4 xo5 : Vec F S8x128 .f32) :
    out0_B_4 c i a2 h2 a3 h3 a4 h4 a5 h5 a6 h6 a7 h7 hc x0 x1 x2 xo3 xo4 xo5 = k0_pay1 (k0_pay7 x2) xo4 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  try sl_unfold_words
  rw [View.canon_unit_zero hz]
  simp only [View.readAt_eq_ld, h2.read_unread, h3.read_unread, h4.read_unread, h5.read_unread, h6.read_unread, h7.read_unread, View.ld_unit_zero (S := S8x128) hz, View.ld_unit_zero (S := S8192x128) hz, View.ld_unit_zero (S := S8192x1) hz]

/-- A later step of a run: the intersection tile becomes the running tile plus this block's sum of `desire` over the rows that exceed the margin. -/
theorem out_B_5 (c : Dev nD) (i : grid0.Coords) (a2 : Memref sig .tc .vmem S8192x128 .f32) (h2 : a2.IsWhole) (a3 : Memref sig .tc .vmem S8192x128 .f32) (h3 : a3.IsWhole) (a4 : Memref sig .tc .vmem S8192x1 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : ¬cond0_0 i)
    (x0 x1 : Vec F S8192x128 .f32) (x2 : Vec F S8192x1 .f32) (xo3 xo4 xo5 : Vec F S8x128 .f32) :
    out0_B_5 c i a2 h2 a3 h3 a4 h4 a5 h5 a6 h6 a7 h7 hc x0 x1 x2 xo3 xo4 xo5 = k0_pay2 (k0_pay8 x0 x1 x2) xo5 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  try sl_unfold_words
  rw [View.canon_unit_zero hz]
  simp only [View.readAt_eq_ld, h2.read_unread, h3.read_unread, h4.read_unread, h5.read_unread, h6.read_unread, h7.read_unread, View.ld_unit_zero (S := S8x128) hz, View.ld_unit_zero (S := S8192x128) hz, View.ld_unit_zero (S := S8192x1) hz]

/-- The first step of a run: the count tile is the zero tile plus this block's count (the zero tile is stored, then read back). -/
theorem out_A_3 (c : Dev nD) (i : grid0.Coords) (a2 : Memref sig .tc .vmem S8192x128 .f32) (h2 : a2.IsWhole) (a3 : Memref sig .tc .vmem S8192x128 .f32) (h3 : a3.IsWhole) (a4 : Memref sig .tc .vmem S8192x1 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : cond0_0 i)
    (x0 x1 : Vec F S8192x128 .f32) (x2 : Vec F S8192x1 .f32) :
    out0_A_3 c i a2 h2 a3 h3 a4 h4 a5 h5 a6 h6 a7 h7 hc x0 x1 x2 = k0_pay9 x0 x1 (k0_pay3 (F := F)) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h6.read_unread, h7.read_unread, View.ld_unit_zero (S := S8x128) hz, View.ld_unit_zero (S := S8192x128) hz, View.ld_unit_zero (S := S8192x1) hz]

/-- The first step of a run: the `desire` tile is the zero tile plus this block's sum of `desire`. -/
theorem out_A_4 (c : Dev nD) (i : grid0.Coords) (a2 : Memref sig .tc .vmem S8192x128 .f32) (h2 : a2.IsWhole) (a3 : Memref sig .tc .vmem S8192x128 .f32) (h3 : a3.IsWhole) (a4 : Memref sig .tc .vmem S8192x1 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : cond0_0 i)
    (x0 x1 : Vec F S8192x128 .f32) (x2 : Vec F S8192x1 .f32) :
    out0_A_4 c i a2 h2 a3 h3 a4 h4 a5 h5 a6 h6 a7 h7 hc x0 x1 x2 = k0_pay1 (k0_pay7 x2) (k0_pay4 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h6.read_unread, h7.read_unread, View.ld_unit_zero (S := S8x128) hz, View.ld_unit_zero (S := S8192x128) hz, View.ld_unit_zero (S := S8192x1) hz]

/-- The first step of a run: the intersection tile is the zero tile plus this block's intersection sum. -/
theorem out_A_5 (c : Dev nD) (i : grid0.Coords) (a2 : Memref sig .tc .vmem S8192x128 .f32) (h2 : a2.IsWhole) (a3 : Memref sig .tc .vmem S8192x128 .f32) (h3 : a3.IsWhole) (a4 : Memref sig .tc .vmem S8192x1 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : cond0_0 i)
    (x0 x1 : Vec F S8192x128 .f32) (x2 : Vec F S8192x1 .f32) :
    out0_A_5 c i a2 h2 a3 h3 a4 h4 a5 h5 a6 h6 a7 h7 hc x0 x1 x2 = k0_pay2 (k0_pay8 x0 x1 x2) (k0_pay5 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h6.read_unread, h7.read_unread, View.ld_unit_zero (S := S8x128) hz, View.ld_unit_zero (S := S8192x128) hz, View.ld_unit_zero (S := S8192x1) hz]

end Cert.KernelIdeal.Pieces
end
-- ==== Proof.Spec.lean ====
/-
  The mathematics shared by the two programs, with no program in sight.

  Both programs compute, for N = 262144 pairs of rows of width 128 and a weight `desire` per row,
      (I + ε) / ((A + D − I) + ε)
  where a row "hits" when the distance between its two vectors exceeds the margin 5/8, A is the number of hits, D the
  sum of the weights and I the sum of the weights over the hits. They differ in three ways only.
  (1) One tests the squared distance against 25/64, the other the square root of it against 5/8: for a sum of squares
      (which is never negative, and may be +∞) these are the same test.
  (2) One adds the rows up in 32 blocks of 8192, two runs of 16 blocks each: addition is associative and commutative.
  (3) One keeps each run's total broadcast over an (8, 128) tile, adds up all 16 × 128 entries of the two tiles and
      multiplies by 1/1024: for REAL totals this is the sum of the two totals. The totals are real because a hit counts
      0 or 1 and the weights are finite by the precondition.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Accuracy

/-! ## The three literals that are evaluated -/

/-- The squared margin the kernel compares against is 25/64. -/
theorem marginSq_val : Ideal.ofBits .f32 0x3EC80000#32 = ((25 / 64 : ℝ) : EReal) := by
  simp [Ideal.ofBits, Ideal.ieee, -EReal.coe_mul]; norm_num

/-- The margin the reference compares against is 5/8. -/
theorem margin_val : Ideal.ofBits .f32 0x3F200000#32 = ((5 / 8 : ℝ) : EReal) := by
  simp [Ideal.ofBits, Ideal.ieee, -EReal.coe_mul]; norm_num

/-- The factor that undoes the tile broadcast is 1/1024 = 1/(8·128). -/
theorem invTile_val : Ideal.ofBits .f32 0x3A800000#32 = ((1 / 1024 : ℝ) : EReal) := by
  simp [Ideal.ofBits, Ideal.ieee, -EReal.coe_mul]; norm_num

/-! ## A hit -/

/-- Whether a squared distance exceeds the squared margin, as the real number 1 or 0. -/
def hitR (s : EReal) : ℝ := if ((25 / 64 : ℝ) : EReal) < s then 1 else 0

/-- The kernel's form: compare with 25/64, widen the bit to 32 bits, read it as a signed integer. -/
theorem hit_kernel (s : EReal) :
    ((((Ideal.cmp .ogt s (Ideal.ofBits .f32 0x3EC80000#32)).setWidth 32).toInt : ℝ) : EReal) = ((hitR s : ℝ) : EReal) := by
  rw [marginSq_val]
  unfold hitR Ideal.cmp
  by_cases h : ((25 / 64 : ℝ) : EReal) < s
  · rw [if_pos h]
    have e : ((BitVec.ofBool (decide (((25 / 64 : ℝ) : EReal) < s))).setWidth 32).toInt = 1 := by
      rw [decide_eq_true h]; decide
    simp only [e]; norm_num
  · rw [if_neg h]
    have e : ((BitVec.ofBool (decide (((25 / 64 : ℝ) : EReal) < s))).setWidth 32).toInt = 0 := by
      rw [decide_eq_false h]; decide
    simp only [e]; norm_num

/-- The reference's form: take the square root, compare with 5/8, read the bit as an unsigned integer. On a value
    that is not negative (+∞ included: its root is +∞) the root exceeds 5/8 exactly when the value exceeds 25/64. -/
theorem hit_ref (s : EReal) (hs : 0 ≤ s) :
    ((((Ideal.cmp .ogt (Ideal.sqrt s) (Ideal.ofBits .f32 0x3F200000#32))).toNat : ℝ) : EReal) = ((hitR s : ℝ) : EReal) := by
  rw [margin_val]
  have key : (((5 / 8 : ℝ) : EReal) < Ideal.sqrt s) ↔ (((25 / 64 : ℝ) : EReal) < s) := by
    induction s using EReal.rec with
    | bot => exact absurd hs (by simp)
    | top => simp
    | coe r =>
      have hr : 0 ≤ r := EReal.coe_nonneg.mp hs
      rw [Ideal.sqrt_coe, if_neg (not_lt.mpr hr), EReal.coe_lt_coe_iff, EReal.coe_lt_coe_iff,
        Real.lt_sqrt (by norm_num)]
      norm_num
  unfold hitR Ideal.cmp
  by_cases h : ((25 / 64 : ℝ) : EReal) < s
  · rw [if_pos h]
    have e : (BitVec.ofBool (decide (((5 / 8 : ℝ) : EReal) < Ideal.sqrt s))).toNat = 1 := by
      rw [decide_eq_true (key.mpr h)]; decide
    simp only [e]; norm_num
  · rw [if_neg h]
    have e : (BitVec.ofBool (decide (((5 / 8 : ℝ) : EReal) < Ideal.sqrt s))).toNat = 0 := by
      rw [decide_eq_false (fun h' => h (key.mp h'))]; decide
    simp only [e]; norm_num

/-- A square of an extended real is never negative (−∞ squared is +∞). -/
theorem mul_self_nonneg (x : EReal) : 0 ≤ x * x := by
  induction x using EReal.rec with
  | bot => simp
  | top => simp
  | coe r => rw [← EReal.coe_mul]; exact EReal.coe_nonneg.mpr (_root_.mul_self_nonneg r)

/-! ## Sums -/

/-- A finite sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Adding up `m` consecutive blocks of `K` terms each is adding up the first `K·m` terms. -/
theorem sum_blocks {M : Type*} [AddCommMonoid M] (f : ℕ → M) (K : ℕ) :
    ∀ m : ℕ, ∑ t ∈ Finset.range m, ∑ r ∈ Finset.range K, f (K * t + r) = ∑ n ∈ Finset.range (K * m), f n
  | 0 => by simp
  | m + 1 => by rw [Finset.sum_range_succ, sum_blocks f K m, Nat.mul_succ, Finset.sum_range_add]

/-- Two totals, each broadcast over an (8, 128) tile of a (16, 128) array (rows 0–7 hold the first, rows 8–15 the
    second): the sum of all 2048 entries, from zero, times 1/1024, is the sum of the two totals. -/
theorem tile_scale (S : ℕ → ℝ) :
    (Ideal.ofBits .f32 0x00000000#32 + ∑ i : (⟨2, ![16, 128]⟩ : Shape).Idx, ((S ((i 0).val / 8) : ℝ) : EReal))
        * Ideal.ofBits .f32 0x3A800000#32 = ((S 0 + S 1 : ℝ) : EReal) := by
  rw [Ideal.ofBits_zero_f32, zero_add, invTile_val, coe_sum, ← EReal.coe_mul]
  refine congrArg _ ?_
  rw [sum_idx2]
  have e : ∀ (a : Fin 16) (b : Fin 128), S (((ix2 a b : (⟨2, ![16, 128]⟩ : Shape).Idx) 0).val / 8) = S (a.val / 8) := fun _ _ => rfl
  simp only [e, Finset.sum_const, Finset.card_univ, Fintype.card_fin, nsmul_eq_mul]
  rw [Fin.sum_univ_eq_sum_range (fun a => ((128 : ℕ) : ℝ) * S (a / 8)) 16]
  simp only [Finset.sum_range_succ, Finset.sum_range_zero]
  norm_num
  ring

end Cert.Accuracy

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KernelPayload.lean ====
/-
  The three per-block scalars of one grid step, read as sums over the block's 8192 rows.

  For a block `x0, x1` of the two (8192, 128) inputs and a block `x2` of the (8192, 1) weights:
    * row `r` hits when its squared distance `sqd x0 x1 r = Σₖ (x0[r,k] − x1[r,k])²` exceeds 25/64; the hit is the real 1 or 0;
    * the count tile's addend is Σᵣ hit r, the weight tile's Σᵣ x2[r,0], the intersection tile's Σᵣ hit r · x2[r,0];
    * each running tile becomes, at every one of its (8, 128) entries, the old entry plus that scalar.
  The layout steps between (a row sum kept as a column, the column re-laid with a leading unit axis, a total over the
  (1, 8192, 1) array, the scalar broadcast to a tile) only move entries; none of them changes a value.
-/
import proofs.«174065_j23441931502276_2_alg».proof.Proof.Gen.KernelIdeal.Skeleton
import proofs.«174065_j23441931502276_2_alg».proof.Proof.Spec
import proofs.«174065_j23441931502276_2_alg».proof.Proof.LibKeepdims
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.Accuracy

/-- An array of shape (1, a, 1) has one entry per middle coordinate: a sum over it is the sum over that coordinate. -/
theorem sum_1a1 {M : Type*} [AddCommMonoid M] {a : ℕ} (f : (⟨3, ![1, a, 1]⟩ : Shape).Idx → M) :
    ∑ j, f j = ∑ r : Fin a, f (ix3 (0 : Fin 1) r (0 : Fin 1)) := by
  let e : Fin a ≃ (⟨3, ![1, a, 1]⟩ : Shape).Idx :=
    { toFun := fun r => ix3 (0 : Fin 1) r (0 : Fin 1)
      invFun := fun j => j 1
      left_inv := fun _ => rfl
      right_inv := fun j => funext fun d => by
        match d with
        | ⟨0, _⟩ => exact Fin.ext (by have h : (j 0).val < 1 := (j 0).isLt; show 0 = (j 0).val; omega)
        | ⟨1, _⟩ => rfl
        | ⟨2, _⟩ => exact Fin.ext (by have h : (j 2).val < 1 := (j 2).isLt; show 0 = (j 2).val; omega) }
  exact (Equiv.sum_comp e f).symm

/-- Row `r`'s squared distance within a block. -/
def sqd (x0 x1 : FVec Ideal S8192x128 .f32) (r : Fin 8192) : EReal :=
  ∑ k : Fin 128, (x0 (ix2 r k) - x1 (ix2 r k)) * (x0 (ix2 r k) - x1 (ix2 r k))

/-- A squared distance is never negative. -/
theorem sqd_nonneg (x0 x1 : FVec Ideal S8192x128 .f32) (r : Fin 8192) : 0 ≤ sqd x0 x1 r :=
  Finset.sum_nonneg fun k _ => Cert.Accuracy.mul_self_nonneg _

/-- The sum along a row of a (8192, 128) block, read at row `r`. -/
theorem rowsum_apply (v : FVec Ideal S8192x128 .f32) (r : Fin 8192) :
    multiReduction .add [1] S8192 v 0x00000000#32 reduces_S8192x128_S8192 (.inl rfl) rfl (ix1 r) = ∑ k : Fin 128, v (ix2 r k) := by
  refine (Ideal.multiReduction_add_single v 0x00000000#32 reduces_S8192x128_S8192 (.inl rfl) rfl (ix1 r)).trans ?_
  exact Finset.sum_congr rfl fun k _ => congrArg v (funext fun a => Fin.ext (by match a with | ⟨0, _⟩ => rfl | ⟨1, _⟩ => rfl))

/-- The hit column at row `r`: the real 1 or 0 according to the row's squared distance. -/
theorem pay6_apply (x0 x1 : FVec Ideal S8192x128 .f32) (r : Fin 8192) (u : Fin 1) :
    k0_pay6 (F := Ideal) x0 x1 (ix2 r u) = ((hitR (sqd x0 x1 r) : ℝ) : EReal) := by
  have e : shapeCast S8192x1 (multiReduction .add [1] S8192 (mulf (subf x0 x1) (subf x0 x1)) 0x00000000#32
        reduces_S8192x128_S8192 (.inl rfl) rfl) shapeCasts_S8192_S8192x1 (ix2 r u) = sqd x0 x1 r :=
    (Cert.Lib.Keepdims.shapeCast_a_a1_apply _ _ r u).trans (rowsum_apply _ r)
  unfold k0_pay6
  exact (congrArg (fun s : EReal => ((((Ideal.cmp .ogt s (Ideal.ofBits .f32 0x3EC80000#32)).setWidth 32).toInt : ℝ) : EReal)) e).trans
    (hit_kernel _)

/-- A total over a (8192, 1) column re-laid as (1, 8192, 1), read at the one index of the result. -/
theorem total_apply (v : FVec Ideal S8192x1 .f32) (j : S1.Idx) :
    multiReduction .add [1, 2] S1 (shapeCast S1x8192x1 v shapeCasts_S8192x1_S1x8192x1) 0x00000000#32 reduces_S1x8192x1_S1 (.inl rfl) rfl j
      = ∑ r : Fin 8192, v (ix2 r (0 : Fin 1)) := by
  refine (Ideal.multiReduction_add_total _ 0x00000000#32 reduces_S1x8192x1_S1
    (fun b => by match b with | ⟨0, _⟩ => rfl) (.inl rfl) rfl j).trans ?_
  refine (sum_1a1 _).trans (Finset.sum_congr rfl fun r _ => ?_)
  exact shapeCast_ab_1ab_apply v shapeCasts_S8192x1_S1x8192x1 (0 : Fin 1) r (0 : Fin 1)

/-- The block's sum of weights, at the one entry of the (1, 1) value that carries it. -/
theorem pay7_apply (x2 : FVec Ideal S8192x1 .f32) (i : S1x1.Idx) :
    k0_pay7 (F := Ideal) x2 i = ∑ r : Fin 8192, x2 (ix2 r (0 : Fin 1)) := by
  unfold k0_pay7
  exact total_apply x2 _

/-- The block's sum of weights over its hits. -/
theorem pay8_apply (x0 x1 : FVec Ideal S8192x128 .f32) (x2 : FVec Ideal S8192x1 .f32) (i : S1x1.Idx) :
    k0_pay8 (F := Ideal) x0 x1 x2 i = ∑ r : Fin 8192, ((hitR (sqd x0 x1 r) : ℝ) : EReal) * x2 (ix2 r (0 : Fin 1)) := by
  unfold k0_pay8
  refine (total_apply (mulf (k0_pay6 (F := Ideal) x0 x1) x2) _).trans (Finset.sum_congr rfl fun r _ => ?_)
  show k0_pay6 (F := Ideal) x0 x1 (ix2 r (0 : Fin 1)) * x2 (ix2 r (0 : Fin 1)) = _
  rw [pay6_apply]

/-- The count tile after a step: each entry is the old entry plus the block's number of hits. -/
theorem pay9_apply (x0 x1 : FVec Ideal S8192x128 .f32) (acc : FVec Ideal S8x128 .f32) (i : S8x128.Idx) :
    k0_pay9 (F := Ideal) x0 x1 acc i = acc i + ∑ r : Fin 8192, ((hitR (sqd x0 x1 r) : ℝ) : EReal) := by
  unfold k0_pay9
  refine congrArg₂ (· + ·) (congrFun (shapeCast_self acc shapeCasts_S8x128_S8x128) i) ?_
  refine (total_apply (k0_pay6 (F := Ideal) x0 x1) _).trans (Finset.sum_congr rfl fun r _ => pay6_apply x0 x1 r 0)

/-- The weight tile after a step: each entry is the old entry plus the scalar carried by `s`. -/
theorem pay1_apply (s : FVec Ideal S1x1 .f32) (acc : FVec Ideal S8x128 .f32) (i : S8x128.Idx) :
    k0_pay1 (F := Ideal) s acc i = acc i + s (ix2 (0 : Fin 1) (0 : Fin 1)) := by
  unfold k0_pay1
  refine congrArg₂ (· + ·) (congrFun (shapeCast_self acc shapeCasts_S8x128_S8x128) i) ?_
  refine (broadcastTo_apply _ broadcasts_S1x1_S8x128 i (ix2 (0 : Fin 1) (0 : Fin 1)) fun a => by
    match a with | ⟨0, _⟩ => rfl | ⟨1, _⟩ => rfl).trans ?_
  exact congrFun (shapeCast_self s shapeCasts_S1x1_S1x1) _

/-- The intersection tile after a step: likewise. -/
theorem pay2_apply (s : FVec Ideal S1x1 .f32) (acc : FVec Ideal S8x128 .f32) (i : S8x128.Idx) :
    k0_pay2 (F := Ideal) s acc i = acc i + s (ix2 (0 : Fin 1) (0 : Fin 1)) := by
  unfold k0_pay2
  refine congrArg₂ (· + ·) (congrFun (shapeCast_self acc shapeCasts_S8x128_S8x128) i) ?_
  refine (broadcastTo_apply _ broadcasts_S1x1_S8x128 i (ix2 (0 : Fin 1) (0 : Fin 1)) fun a => by
    match a with | ⟨0, _⟩ => rfl | ⟨1, _⟩ => rfl).trans ?_
  exact congrFun (shapeCast_self s shapeCasts_S1x1_S1x1) _

/-- The zero tile stored at the first step of a run. -/
theorem pay3_apply (i : S8x128.Idx) : k0_pay3 (F := Ideal) i = 0 := Ideal.ofBits_zero_f32
theorem pay4_apply (i : S8x128.Idx) : k0_pay4 (F := Ideal) i = 0 := Ideal.ofBits_zero_f32
theorem pay5_apply (i : S8x128.Idx) : k0_pay5 (F := Ideal) i = 0 := Ideal.ofBits_zero_f32

end Cert.KernelIdeal.Payload

end
-- ==== Proof.KernelChain.lean ====
/-
  What the three accumulator tiles hold when a run of 16 grid steps ends.

  The grid's 32 steps are two runs of 16 (steps 16q … 16q + 15, q = 0, 1). Step `n` works on row block `n` and adds
  three scalars — `hits n`, `weights n`, `both n` below: the block's number of hits, its sum of weights, its sum of weights
  over the hits — to every entry of the three running tiles; the first step of a run starts from the zero tile. So by
  induction along a run (never by listing the grid), at the run's last step every entry of a tile is the sum of that
  scalar over the run's 16 blocks.
-/
import proofs.«174065_j23441931502276_2_alg».proof.Proof.Gen.KernelIdeal.Frame
import proofs.«174065_j23441931502276_2_alg».proof.Proof.KernelPieces
import proofs.«174065_j23441931502276_2_alg».proof.Proof.KernelPayload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.Accuracy Cert.KernelIdeal.Payload

/-- A quantity carried along the grid that restarts as `0 + M n` at the steps `n` divisible by 16 and becomes
    "previous + M n" at every other step is, at a step `t ≡ 15 (mod 16)`, the sum of `M` over the 16 steps of `t`'s run. -/
theorem run_total {ι : Type} {N : ℕ} (f : (n : ℕ) → n < N → ι → EReal) (M : ℕ → EReal)
    (hA : ∀ (n : ℕ) (h : n < N), n % 16 = 0 → ∀ i, f n h i = 0 + M n)
    (hB : ∀ (n : ℕ) (h : n + 1 < N), ¬(n + 1) % 16 = 0 → ∀ i, f (n + 1) h i = f n (Nat.lt_of_succ_lt h) i + M (n + 1))
    (t : ℕ) (ht : t < N) (h15 : t % 16 = 15) (i : ι) :
    f t ht i = ∑ s ∈ Finset.range 16, M (16 * (t / 16) + s) := by
  have h' : 16 * (t / 16) + t % 16 < N := by rw [Nat.div_add_mod]; exact ht
  rw [Pipeline.eq_accAt_of_mod f 16 (fun n _ _ => 0 + M n) (fun n _ acc i => acc i + M n)
    (fun n h hn => funext (hA n h hn)) (fun n h hn => funext (hB n h hn)) (by norm_num) t ht h']
  have e := Pipeline.accAt_add_apply (N := N) (fun n _ (_ : ι) => 0 + M n) (fun n _ acc i => acc i + M n) (fun _ => 0) (fun n _ => M n)
    (16 * (t / 16)) 15 (fun _ _ => rfl) (fun _ _ _ _ _ _ => rfl) (t % 16) (by omega) h' i
  rw [e, h15, zero_add]

variable (m : (ℓ : Loc nD τ sig) → Buf (Elt Ideal) ℓ) (c : Dev nD)

/-- A block's number of hits, its sum of weights, and its sum of weights over its hits. -/
def hitSum (x0 x1 : FVec Ideal S8192x128 .f32) : EReal := ∑ r : Fin 8192, ((hitR (sqd x0 x1 r) : ℝ) : EReal)
def wSum (x2 : FVec Ideal S8192x1 .f32) : EReal := ∑ r : Fin 8192, x2 (ix2 r (0 : Fin 1))
def bothSum (x0 x1 : FVec Ideal S8192x128 .f32) (x2 : FVec Ideal S8192x1 .f32) : EReal :=
  ∑ r : Fin 8192, ((hitR (sqd x0 x1 r) : ℝ) : EReal) * x2 (ix2 r (0 : Fin 1))

/-- Block `n`'s number of hits (zero past the grid). -/
def hits (n : ℕ) : EReal := if h : n < cfg0.N then hitSum (iblk m c 0 ⟨n, h⟩) (iblk m c 1 ⟨n, h⟩) else 0
/-- Block `n`'s sum of weights. -/
def weights (n : ℕ) : EReal := if h : n < cfg0.N then wSum (iblk m c 2 ⟨n, h⟩) else 0
/-- Block `n`'s sum of weights over its hits. -/
def both (n : ℕ) : EReal := if h : n < cfg0.N then bothSum (iblk m c 0 ⟨n, h⟩) (iblk m c 1 ⟨n, h⟩) (iblk m c 2 ⟨n, h⟩) else 0

theorem hits_eq (t : Fin cfg0.N) : hits m c t.val = hitSum (iblk m c 0 t) (iblk m c 1 t) := dif_pos t.isLt
theorem weights_eq (t : Fin cfg0.N) : weights m c t.val = wSum (iblk m c 2 t) := dif_pos t.isLt
theorem both_eq (t : Fin cfg0.N) : both m c t.val = bothSum (iblk m c 0 t) (iblk m c 1 t) (iblk m c 2 t) := dif_pos t.isLt

/-! ## One step, tile by tile -/

theorem first3 (t : Fin cfg0.N) (h0 : t.val % 16 = 0) (i : S8x128.Idx) :
    (outsAt0 m c t.val t.isLt).1 i = 0 + hits m c t.val := by
  rw [outsAt0_A m c t h0, hits_eq]
  dsimp only
  refine (congrFun (Pieces.out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) i).trans ?_
  refine (pay9_apply (iblk m c 0 t) (iblk m c 1 t) (k0_pay3 (F := Ideal)) i).trans ?_
  rw [pay3_apply]; rfl

theorem first4 (t : Fin cfg0.N) (h0 : t.val % 16 = 0) (i : S8x128.Idx) :
    (outsAt0 m c t.val t.isLt).2.1 i = 0 + weights m c t.val := by
  rw [outsAt0_A m c t h0, weights_eq]
  dsimp only
  refine (congrFun (Pieces.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) i).trans ?_
  refine (pay1_apply (k0_pay7 (F := Ideal) (iblk m c 2 t)) (k0_pay4 (F := Ideal)) i).trans ?_
  rw [pay4_apply, pay7_apply]; rfl

theorem first5 (t : Fin cfg0.N) (h0 : t.val % 16 = 0) (i : S8x128.Idx) :
    (outsAt0 m c t.val t.isLt).2.2 i = 0 + both m c t.val := by
  rw [outsAt0_A m c t h0, both_eq]
  dsimp only
  refine (congrFun (Pieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) i).trans ?_
  refine (pay2_apply (k0_pay8 (F := Ideal) (iblk m c 0 t) (iblk m c 1 t) (iblk m c 2 t)) (k0_pay5 (F := Ideal)) i).trans ?_
  rw [pay5_apply, pay8_apply]; rfl

theorem later3 (t : Fin cfg0.N) (h0 : ¬t.val % 16 = 0) (i : S8x128.Idx) :
    (outsAt0 m c t.val t.isLt).1 i = (outsAt0 m c (t.val - 1) (Nat.lt_of_le_of_lt (Nat.sub_le _ _) t.isLt)).1 i + hits m c t.val := by
  rw [outsAt0_B m c t h0, hits_eq]
  dsimp only
  refine (congrFun (Pieces.out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) i).trans ?_
  exact pay9_apply (iblk m c 0 t) (iblk m c 1 t) (outsAt0 m c (t.val - 1) (Nat.lt_of_le_of_lt (Nat.sub_le _ _) t.isLt)).1 i

theorem later4 (t : Fin cfg0.N) (h0 : ¬t.val % 16 = 0) (i : S8x128.Idx) :
    (outsAt0 m c t.val t.isLt).2.1 i = (outsAt0 m c (t.val - 1) (Nat.lt_of_le_of_lt (Nat.sub_le _ _) t.isLt)).2.1 i + weights m c t.val := by
  rw [outsAt0_B m c t h0, weights_eq]
  dsimp only
  refine (congrFun (Pieces.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) i).trans ?_
  refine (pay1_apply (k0_pay7 (F := Ideal) (iblk m c 2 t)) (outsAt0 m c (t.val - 1) (Nat.lt_of_le_of_lt (Nat.sub_le _ _) t.isLt)).2.1 i).trans ?_
  rw [pay7_apply]; rfl

theorem later5 (t : Fin cfg0.N) (h0 : ¬t.val % 16 = 0) (i : S8x128.Idx) :
    (outsAt0 m c t.val t.isLt).2.2 i = (outsAt0 m c (t.val - 1) (Nat.lt_of_le_of_lt (Nat.sub_le _ _) t.isLt)).2.2 i + both m c t.val := by
  rw [outsAt0_B m c t h0, both_eq]
  dsimp only
  refine (congrFun (Pieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) i).trans ?_
  refine (pay2_apply (k0_pay8 (F := Ideal) (iblk m c 0 t) (iblk m c 1 t) (iblk m c 2 t)) (outsAt0 m c (t.val - 1) (Nat.lt_of_le_of_lt (Nat.sub_le _ _) t.isLt)).2.2 i).trans ?_
  rw [pay8_apply]; rfl

/-! ## A whole run -/

/-- At the last step of a run every entry of the count tile is the run's number of hits. -/
theorem last3 (t : Fin cfg0.N) (h15 : t.val % 16 = 15) (i : S8x128.Idx) :
    (outsAt0 m c t.val t.isLt).1 i = ∑ s ∈ Finset.range 16, hits m c (16 * (t.val / 16) + s) :=
  run_total (fun n h => (outsAt0 m c n h).1) (hits m c) (fun n h hn i => first3 m c ⟨n, h⟩ hn i)
    (fun n h hn i => later3 m c ⟨n + 1, h⟩ hn i) t.val t.isLt h15 i

/-- … of the weight tile the run's sum of weights. -/
theorem last4 (t : Fin cfg0.N) (h15 : t.val % 16 = 15) (i : S8x128.Idx) :
    (outsAt0 m c t.val t.isLt).2.1 i = ∑ s ∈ Finset.range 16, weights m c (16 * (t.val / 16) + s) :=
  run_total (fun n h => (outsAt0 m c n h).2.1) (weights m c) (fun n h hn i => first4 m c ⟨n, h⟩ hn i)
    (fun n h hn i => later4 m c ⟨n + 1, h⟩ hn i) t.val t.isLt h15 i

/-- … of the intersection tile the run's sum of weights over its hits. -/
theorem last5 (t : Fin cfg0.N) (h15 : t.val % 16 = 15) (i : S8x128.Idx) :
    (outsAt0 m c t.val t.isLt).2.2 i = ∑ s ∈ Finset.range 16, both m c (16 * (t.val / 16) + s) :=
  run_total (fun n h => (outsAt0 m c n h).2.2) (both m c) (fun n h hn i => first5 m c ⟨n, h⟩ hn i)
    (fun n h hn i => later5 m c ⟨n + 1, h⟩ hn i) t.val t.isLt h15 i

end Cert.KernelIdeal.Chain

end
-- ==== Proof.KernelFinal.lean ====
/-
  The three (16, 128) result arrays after the kernel's run.

  Each output window's block moves with the run index only (block `t / 16` at step `t`) and is written back at a run's
  last step, `t ≡ 15 (mod 16)`. So the array ends with, in rows 8q … 8q + 7 (q = 0, 1) and every column, the total over
  run `q`'s 16 blocks of that output's per-block scalar; the two written tiles cover all 16 rows.
-/
import proofs.«174065_j23441931502276_2_alg».proof.Proof.KernelChain

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Accuracy Cert.KernelIdeal.Chain

variable (m : (ℓ : Loc nD τ sig) → Buf (Elt Ideal) ℓ) (c : Dev nD)

/-! ## Output 0 (window 3) -/

/-- Window 3's block at step `t` is tile `t / 16` of its (16, 128) array: rows 8·(t / 16) … 8·(t / 16) + 7, all 128 columns. -/
theorem idx3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- The array the run leaves: at row `p`, every column, the total of `hits` over the 16 blocks of run `p / 8`. -/
def G3 : S16x128.Idx → EReal := fun i => ∑ s ∈ Finset.range 16, hits m c (16 * ((i 0).val / 8) + s)

/-- What a run's last step writes back is its tile of `G3`. -/
theorem flushed3 (t : Fin cfg0.N) (hf : (cfg0.win 3).flush t = true) :
    (dats m 0 c).flushed 3 t = ((cfg0.win 3).blk t).view.read (Elt Ideal) (G3 m c) := by
  have h15 := (flush0_3 t).mp hf
  show (cfg0.win 3).cut (grid0.coords t) ((dats m 0 c).after 3 t) = _
  rw [after0_3]
  funext y
  show (outsAt0 m c t.val t.isLt).1 y = G3 m c (((cfg0.win 3).blk t).view.emb y)
  rw [last3 m c t h15 y]
  unfold G3
  have hi := (idx3 t).1
  have e : ((((cfg0.win 3).blk t).view.emb y) 0).val = win0_3.index t (0 : Fin 2) * 8 + 1 * (y 0).val := rfl
  have hy : (y 0).val < 8 := (y 0).isLt
  refine Finset.sum_congr rfl fun s _ => congrArg (hits m c) ?_
  rw [e, hi]
  omega

/-- An index of the array is in step `t`'s block iff each coordinate is in the block's range on its axis. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_0).slice (win0_3.rect t)).set ↔ _
  rw [View.set_slice_whole, Rect.mem_set_unit]
  exact Iff.rfl

/-- The two tiles written back (at steps 15 and 31) cover the array: it ends at `G3`. -/
theorem final3 : (dats m 0 c).arrAt 3 cfg0.N = G3 m c :=
  (dats m 0 c).arrAt_eq_of_cover 3 (G3 m c) (flushed3 m c) fun i => by
    have hi0 : (i 0).val < 16 := (i 0).isLt
    have hi1 : (i 1).val < 128 := (i 1).isLt
    have hN : cfg0.N = 32 := N_0
    have hlt : 16 * ((i 0).val / 8) + 15 < cfg0.N := by omega
    obtain ⟨e0, e1⟩ := idx3 ⟨16 * ((i 0).val / 8) + 15, hlt⟩
    refine ⟨⟨16 * ((i 0).val / 8) + 15, hlt⟩, (flush0_3 _).mpr (by show (16 * ((i 0).val / 8) + 15) % 16 = 15; omega), ?_⟩
    rw [mem_blk3]
    intro a
    match a with
    | ⟨0, _⟩ =>
      show win0_3.index ⟨16 * ((i 0).val / 8) + 15, hlt⟩ (0 : Fin 2) * 8 ≤ (i 0).val ∧ (i 0).val < win0_3.index ⟨16 * ((i 0).val / 8) + 15, hlt⟩ (0 : Fin 2) * 8 + 8
      rw [e0]
      show (16 * ((i 0).val / 8) + 15) / 16 * 8 ≤ (i 0).val ∧ (i 0).val < (16 * ((i 0).val / 8) + 15) / 16 * 8 + 8
      omega
    | ⟨1, _⟩ =>
      show win0_3.index ⟨16 * ((i 0).val / 8) + 15, hlt⟩ (1 : Fin 2) * 128 ≤ (i 1).val ∧ (i 1).val < win0_3.index ⟨16 * ((i 0).val / 8) + 15, hlt⟩ (1 : Fin 2) * 128 + 128
      rw [e1]
      omega

/-! ## Output 1 (window 4) -/

/-- Window 4's block at step `t` is tile `t / 16` of its (16, 128) array: rows 8·(t / 16) … 8·(t / 16) + 7, all 128 columns. -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- The array the run leaves: at row `p`, every column, the total of `weights` over the 16 blocks of run `p / 8`. -/
def G4 : S16x128.Idx → EReal := fun i => ∑ s ∈ Finset.range 16, weights m c (16 * ((i 0).val / 8) + s)

/-- What a run's last step writes back is its tile of `G4`. -/
theorem flushed4 (t : Fin cfg0.N) (hf : (cfg0.win 4).flush t = true) :
    (dats m 0 c).flushed 4 t = ((cfg0.win 4).blk t).view.read (Elt Ideal) (G4 m c) := by
  have h15 := (flush0_4 t).mp hf
  show (cfg0.win 4).cut (grid0.coords t) ((dats m 0 c).after 4 t) = _
  rw [after0_4]
  funext y
  show (outsAt0 m c t.val t.isLt).2.1 y = G4 m c (((cfg0.win 4).blk t).view.emb y)
  rw [last4 m c t h15 y]
  unfold G4
  have hi := (idx4 t).1
  have e : ((((cfg0.win 4).blk t).view.emb y) 0).val = win0_4.index t (0 : Fin 2) * 8 + 1 * (y 0).val := rfl
  have hy : (y 0).val < 8 := (y 0).isLt
  refine Finset.sum_congr rfl fun s _ => congrArg (weights m c) ?_
  rw [e, hi]
  omega

/-- An index of the array is in step `t`'s block iff each coordinate is in the block's range on its axis. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_1).slice (win0_4.rect t)).set ↔ _
  rw [View.set_slice_whole, Rect.mem_set_unit]
  exact Iff.rfl

/-- The two tiles written back (at steps 15 and 31) cover the array: it ends at `G4`. -/
theorem final4 : (dats m 0 c).arrAt 4 cfg0.N = G4 m c :=
  (dats m 0 c).arrAt_eq_of_cover 4 (G4 m c) (flushed4 m c) fun i => by
    have hi0 : (i 0).val < 16 := (i 0).isLt
    have hi1 : (i 1).val < 128 := (i 1).isLt
    have hN : cfg0.N = 32 := N_0
    have hlt : 16 * ((i 0).val / 8) + 15 < cfg0.N := by omega
    obtain ⟨e0, e1⟩ := idx4 ⟨16 * ((i 0).val / 8) + 15, hlt⟩
    refine ⟨⟨16 * ((i 0).val / 8) + 15, hlt⟩, (flush0_4 _).mpr (by show (16 * ((i 0).val / 8) + 15) % 16 = 15; omega), ?_⟩
    rw [mem_blk4]
    intro a
    match a with
    | ⟨0, _⟩ =>
      show win0_4.index ⟨16 * ((i 0).val / 8) + 15, hlt⟩ (0 : Fin 2) * 8 ≤ (i 0).val ∧ (i 0).val < win0_4.index ⟨16 * ((i 0).val / 8) + 15, hlt⟩ (0 : Fin 2) * 8 + 8
      rw [e0]
      show (16 * ((i 0).val / 8) + 15) / 16 * 8 ≤ (i 0).val ∧ (i 0).val < (16 * ((i 0).val / 8) + 15) / 16 * 8 + 8
      omega
    | ⟨1, _⟩ =>
      show win0_4.index ⟨16 * ((i 0).val / 8) + 15, hlt⟩ (1 : Fin 2) * 128 ≤ (i 1).val ∧ (i 1).val < win0_4.index ⟨16 * ((i 0).val / 8) + 15, hlt⟩ (1 : Fin 2) * 128 + 128
      rw [e1]
      omega

/-! ## Output 2 (window 5) -/

/-- Window 5's block at step `t` is tile `t / 16` of its (16, 128) array: rows 8·(t / 16) … 8·(t / 16) + 7, all 128 columns. -/
theorem idx5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)

/-- The array the run leaves: at row `p`, every column, the total of `both` over the 16 blocks of run `p / 8`. -/
def G5 : S16x128.Idx → EReal := fun i => ∑ s ∈ Finset.range 16, both m c (16 * ((i 0).val / 8) + s)

/-- What a run's last step writes back is its tile of `G5`. -/
theorem flushed5 (t : Fin cfg0.N) (hf : (cfg0.win 5).flush t = true) :
    (dats m 0 c).flushed 5 t = ((cfg0.win 5).blk t).view.read (Elt Ideal) (G5 m c) := by
  have h15 := (flush0_5 t).mp hf
  show (cfg0.win 5).cut (grid0.coords t) ((dats m 0 c).after 5 t) = _
  rw [after0_5]
  funext y
  show (outsAt0 m c t.val t.isLt).2.2 y = G5 m c (((cfg0.win 5).blk t).view.emb y)
  rw [last5 m c t h15 y]
  unfold G5
  have hi := (idx5 t).1
  have e : ((((cfg0.win 5).blk t).view.emb y) 0).val = win0_5.index t (0 : Fin 2) * 8 + 1 * (y 0).val := rfl
  have hy : (y 0).val < 8 := (y 0).isLt
  refine Finset.sum_congr rfl fun s _ => congrArg (both m c) ?_
  rw [e, hi]
  omega

/-- An index of the array is in step `t`'s block iff each coordinate is in the block's range on its axis. -/
theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v0_2).slice (win0_5.rect t)).set ↔ _
  rw [View.set_slice_whole, Rect.mem_set_unit]
  exact Iff.rfl

/-- The two tiles written back (at steps 15 and 31) cover the array: it ends at `G5`. -/
theorem final5 : (dats m 0 c).arrAt 5 cfg0.N = G5 m c :=
  (dats m 0 c).arrAt_eq_of_cover 5 (G5 m c) (flushed5 m c) fun i => by
    have hi0 : (i 0).val < 16 := (i 0).isLt
    have hi1 : (i 1).val < 128 := (i 1).isLt
    have hN : cfg0.N = 32 := N_0
    have hlt : 16 * ((i 0).val / 8) + 15 < cfg0.N := by omega
    obtain ⟨e0, e1⟩ := idx5 ⟨16 * ((i 0).val / 8) + 15, hlt⟩
    refine ⟨⟨16 * ((i 0).val / 8) + 15, hlt⟩, (flush0_5 _).mpr (by show (16 * ((i 0).val / 8) + 15) % 16 = 15; omega), ?_⟩
    rw [mem_blk5]
    intro a
    match a with
    | ⟨0, _⟩ =>
      show win0_5.index ⟨16 * ((i 0).val / 8) + 15, hlt⟩ (0 : Fin 2) * 8 ≤ (i 0).val ∧ (i 0).val < win0_5.index ⟨16 * ((i 0).val / 8) + 15, hlt⟩ (0 : Fin 2) * 8 + 8
      rw [e0]
      show (16 * ((i 0).val / 8) + 15) / 16 * 8 ≤ (i 0).val ∧ (i 0).val < (16 * ((i 0).val / 8) + 15) / 16 * 8 + 8
      omega
    | ⟨1, _⟩ =>
      show win0_5.index ⟨16 * ((i 0).val / 8) + 15, hlt⟩ (1 : Fin 2) * 128 ≤ (i 1).val ∧ (i 1).val < win0_5.index ⟨16 * ((i 0).val / 8) + 15, hlt⟩ (1 : Fin 2) * 128 + 128
      rw [e1]
      omega

end Cert.KernelIdeal.Final

end
-- ==== Proof.Bridge.lean ====
/-
  From the two programs' arrangements of the three totals to one real number each.

  Rows are numbered 0 … 262143. `sqRow n` is row `n`'s squared distance and `wRow n` its weight (both read off the
  argument arrays; zero past the last row, which is never used). With `f` one of
      n ↦ hit(sqRow n),     n ↦ wRow n,     n ↦ hit(sqRow n) · wRow n       (as reals),
  * one program holds, in a (16, 128) array, at every entry of rows 8q … 8q + 7 (q = 0, 1), the sum of `f` over the 16
    blocks of 8192 rows of run `q`; it sums all entries from zero and multiplies by 1/1024 (`tile_total`);
  * the other sums the (262144, 1) column of the `f n` from zero (`col_total`).
  Both are Σₙ f n over all 262144 rows.
-/
import proofs.«174065_j23441931502276_2_alg».proof.Proof.Spec

noncomputable section

open Idealize.ShloMosaic Idealize.ShloMosaic.ValueIdx

namespace Cert.Accuracy

/-- Entry `k` of row `n` of a (262144, 128) array (zero past the last row). -/
def rowAt (A : (⟨2, ![262144, 128]⟩ : Shape).Idx → EReal) (n : ℕ) (k : Fin 128) : EReal :=
  if h : n < 262144 then A (ix2 ⟨n, h⟩ k) else 0

/-- Row `n`'s entry of a (262144, 1) column (zero past the last row). -/
def wRow (D : (⟨2, ![262144, 1]⟩ : Shape).Idx → EReal) (n : ℕ) : EReal :=
  if h : n < 262144 then D (ix2 ⟨n, h⟩ (0 : Fin 1)) else 0

/-- Row `n`'s squared distance between the two arrays. -/
def sqRow (A0 A1 : (⟨2, ![262144, 128]⟩ : Shape).Idx → EReal) (n : ℕ) : EReal :=
  ∑ k : Fin 128, (rowAt A0 n k - rowAt A1 n k) * (rowAt A0 n k - rowAt A1 n k)

theorem sqRow_nonneg (A0 A1 : (⟨2, ![262144, 128]⟩ : Shape).Idx → EReal) (n : ℕ) : 0 ≤ sqRow A0 A1 n :=
  Finset.sum_nonneg fun _ _ => mul_self_nonneg _

/-- An extended real that is a real is the coercion of its real part. -/
theorem coe_toReal_of_real {x : EReal} (h : ∃ r : ℝ, x = r) : ((x.toReal : ℝ) : EReal) = x := by
  obtain ⟨r, rfl⟩ := h; rw [EReal.toReal_coe]

/-- Finite weights: every row's weight is a real. -/
theorem wRow_real (D : (⟨2, ![262144, 1]⟩ : Shape).Idx → EReal) (hfin : ∀ j, ∃ r : ℝ, D j = r) (n : ℕ) :
    (((wRow D n).toReal : ℝ) : EReal) = wRow D n := by
  apply coe_toReal_of_real
  unfold wRow
  split
  · exact hfin _
  · exact ⟨0, by simp⟩

/-- The tiled arrangement: two runs of 16 blocks of 8192 rows, each run's total broadcast over an (8, 128) tile, all
    entries summed from zero and scaled by 1/1024. -/
theorem tile_total (f : ℕ → ℝ) (O : (⟨2, ![16, 128]⟩ : Shape).Idx → EReal)
    (hO : ∀ i, O i = ∑ s ∈ Finset.range 16, ∑ r ∈ Finset.range 8192, ((f (8192 * (16 * ((i 0).val / 8) + s) + r) : ℝ) : EReal)) :
    (Ideal.ofBits .f32 0x00000000#32 + ∑ i, O i) * Ideal.ofBits .f32 0x3A800000#32
      = ((∑ n ∈ Finset.range 262144, f n : ℝ) : EReal) := by
  obtain ⟨S, hS⟩ : ∃ S : ℕ → ℝ, S = fun q => ∑ s ∈ Finset.range 16, ∑ r ∈ Finset.range 8192, f (8192 * (16 * q + s) + r) := ⟨_, rfl⟩
  have e : ∀ i, O i = ((S ((i 0).val / 8) : ℝ) : EReal) := by
    intro i
    rw [hO i, hS, ← coe_sum]
    exact Finset.sum_congr rfl fun s _ => coe_sum _ _
  simp only [e]
  rw [tile_scale S]
  refine congrArg _ ?_
  subst hS
  have h2 := sum_blocks (fun n => ∑ r ∈ Finset.range 8192, f (8192 * n + r)) 16 2
  rw [Finset.sum_range_succ, Finset.sum_range_one] at h2
  simp only [Nat.mul_zero, Nat.mul_one] at h2 ⊢
  rw [h2]
  exact sum_blocks f 8192 32

/-- The column arrangement: one entry per row, summed from zero. -/
theorem col_total (f : ℕ → ℝ) (v : (⟨2, ![262144, 1]⟩ : Shape).Idx → EReal)
    (hv : ∀ (n : Fin 262144) (u : Fin 1), v (ix2 n u) = ((f n.val : ℝ) : EReal)) :
    Ideal.ofBits .f32 0x00000000#32 + ∑ j, v j = ((∑ n ∈ Finset.range 262144, f n : ℝ) : EReal) := by
  rw [Ideal.ofBits_zero_f32, zero_add, sum_idx2]
  simp only [hv, Finset.sum_const, Finset.card_univ, Fintype.card_fin, one_nsmul]
  rw [coe_sum, Fin.sum_univ_eq_sum_range f 262144]

/-! ## The answer -/

/-- The hit of row `n`, as a real. -/
def hitRow (A0 A1 : (⟨2, ![262144, 128]⟩ : Shape).Idx → EReal) (n : ℕ) : ℝ := hitR (sqRow A0 A1 n)

/-- The weight of row `n`, as a real (its real part: the weight itself when it is finite). -/
def wReal (D : (⟨2, ![262144, 1]⟩ : Shape).Idx → EReal) (n : ℕ) : ℝ := (wRow D n).toReal

/-- The quotient both programs end with, from the number of hits `TA`, the sum of weights `TD` and the sum of
    weights over the hits `TI`: (TI + ε) / ((TA + TD − TI) + ε), ε the same literal in both programs. -/
def ratio (TA TD TI : EReal) : EReal :=
  Ideal.div (TI + Ideal.ofBits .f32 0x358637BD#32) ((TA + TD - TI) + Ideal.ofBits .f32 0x358637BD#32)

/-- What both programs compute from the three argument arrays. -/
def answer (A0 A1 : (⟨2, ![262144, 128]⟩ : Shape).Idx → EReal) (D : (⟨2, ![262144, 1]⟩ : Shape).Idx → EReal) : EReal :=
  ratio ((∑ n ∈ Finset.range 262144, hitRow A0 A1 n : ℝ) : EReal)
    ((∑ n ∈ Finset.range 262144, wReal D n : ℝ) : EReal)
    ((∑ n ∈ Finset.range 262144, hitRow A0 A1 n * wReal D n : ℝ) : EReal)

end Cert.Accuracy

end
-- ==== Proof.KernelBlocks.lean ====
/-
  The blocks the kernel loads, as rows of the argument arrays.

  At step `t` each of the three input windows holds row block `t` of its array, so entry `(r, k)` of the block is entry
  `(8192·t + r, k)` of the array. Hence the squared distance of the block's row `r` is the array's row `8192·t + r`'s, and
  the per-block scalars are sums over the rows 8192·t … 8192·t + 8191.
-/
import proofs.«174065_j23441931502276_2_alg».proof.Proof.KernelChain
import proofs.«174065_j23441931502276_2_alg».proof.Proof.Bridge

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Accuracy Cert.KernelIdeal.Payload Cert.KernelIdeal.Chain

variable (m : (ℓ : Loc nD τ sig) → Buf (Elt Ideal) ℓ) (c : Dev nD)

/-- Input window 0's block at step `t` is row block `t` of its array: rows 8192·t … 8192·t + 8191, every column. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Input window 1's block at step `t` is row block `t` of its array: rows 8192·t … 8192·t + 8191, every column. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Input window 2's block at step `t` is row block `t` of its array: rows 8192·t … 8192·t + 8191, every column. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem blk0_apply (t : Fin cfg0.N) (r : Fin 8192) (k : Fin 128) :
    (iblk m c 0 t : FVec Ideal S8192x128 .f32) (ix2 r k)
      = rowAt (m ((c : Thread nD τ).loc main_arg0)) (8192 * t.val + r.val) k := by
  have hN : cfg0.N = 32 := N_0
  have ht := t.isLt
  have hlt : 8192 * t.val + r.val < 262144 := by omega
  unfold rowAt
  rw [dif_pos hlt]
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 8192 + 1 * r.val = 8192 * t.val + r.val; rw [(idx0 t).1]; omega
  | ⟨1, _⟩ => show win0_0.index t (1 : Fin 2) * 128 + 1 * k.val = k.val; rw [(idx0 t).2]; omega

theorem blk1_apply (t : Fin cfg0.N) (r : Fin 8192) (k : Fin 128) :
    (iblk m c 1 t : FVec Ideal S8192x128 .f32) (ix2 r k)
      = rowAt (m ((c : Thread nD τ).loc main_arg1)) (8192 * t.val + r.val) k := by
  have hN : cfg0.N = 32 := N_0
  have ht := t.isLt
  have hlt : 8192 * t.val + r.val < 262144 := by omega
  unfold rowAt
  rw [dif_pos hlt]
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t (0 : Fin 2) * 8192 + 1 * r.val = 8192 * t.val + r.val; rw [(idx1 t).1]; omega
  | ⟨1, _⟩ => show win0_1.index t (1 : Fin 2) * 128 + 1 * k.val = k.val; rw [(idx1 t).2]; omega

theorem blk2_apply (t : Fin cfg0.N) (r : Fin 8192) :
    (iblk m c 2 t : FVec Ideal S8192x1 .f32) (ix2 r (0 : Fin 1))
      = wRow (m ((c : Thread nD τ).loc main_arg2)) (8192 * t.val + r.val) := by
  have hN : cfg0.N = 32 := N_0
  have ht := t.isLt
  have hlt : 8192 * t.val + r.val < 262144 := by omega
  unfold wRow
  rw [dif_pos hlt]
  unfold iblk
  rw [View.read_apply]
  show m ((c : Thread nD τ).loc main_arg2) _ = m ((c : Thread nD τ).loc main_arg2) _
  refine congrArg (m ((c : Thread nD τ).loc main_arg2)) (funext fun a => Fin.ext ?_)
  match a with
  | ⟨0, _⟩ => show win0_2.index t (0 : Fin 2) * 8192 + 1 * r.val = 8192 * t.val + r.val; rw [(idx2 t).1]; omega
  | ⟨1, _⟩ => show win0_2.index t (1 : Fin 2) * 1 + 1 * 0 = 0; rw [(idx2 t).2]

/-- The squared distance of row `r` of block `t` is that of row `8192·t + r` of the arrays. -/
theorem sqd_blk (t : Fin cfg0.N) (r : Fin 8192) :
    sqd (iblk m c 0 t) (iblk m c 1 t) r
      = sqRow (m ((c : Thread nD τ).loc main_arg0)) (m ((c : Thread nD τ).loc main_arg1)) (8192 * t.val + r.val) := by
  unfold sqd sqRow
  exact Finset.sum_congr rfl fun k _ => by rw [blk0_apply, blk1_apply]

end Cert.KernelIdeal.Blocks

end
-- ==== Proof.KernelTail.lean ====
/-
  The kernel program's result is `answer` of its three arguments.

  After the kernel's run the host sums each of the three (16, 128) arrays from zero, scales each sum by 1/1024, and forms
  (I + ε) / ((A + D − I) + ε). Each array holds two run totals broadcast over tiles, and a run total is a sum over 16
  blocks of 8192 rows of a real per-row quantity, so each scaled sum is the sum of that quantity over all rows
  (`tile_total`). The weights are real by the precondition.
-/
import proofs.«174065_j23441931502276_2_alg».proof.Proof.KernelFinal
import proofs.«174065_j23441931502276_2_alg».proof.Proof.KernelBlocks
import proofs.«174065_j23441931502276_2_alg».proof.Proof.Bridge
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.Accuracy Cert.KernelIdeal.Payload Cert.KernelIdeal.Chain
  Cert.KernelIdeal.Final Cert.KernelIdeal.Blocks

variable (m : (ℓ : Loc nD τ sig) → Buf (Elt Ideal) ℓ) (c : Dev nD)

/-- The three argument arrays as the core finds them. -/
abbrev A0 : FVec Ideal S262144x128 .f32 := m ((c : Thread nD τ).loc main_arg0)
abbrev A1 : FVec Ideal S262144x128 .f32 := m ((c : Thread nD τ).loc main_arg1)
abbrev A2 : FVec Ideal S262144x1 .f32 := m ((c : Thread nD τ).loc main_arg2)

/-! ## The per-block scalars as sums over rows of the arrays -/

theorem hits_rows (n : ℕ) (hn : n < 32) :
    hits m c n = ∑ r ∈ Finset.range 8192, ((hitRow (A0 m c) (A1 m c) (8192 * n + r) : ℝ) : EReal) := by
  have hN : cfg0.N = 32 := N_0
  have h : n < cfg0.N := by omega
  refine (hits_eq m c ⟨n, h⟩).trans ?_
  unfold hitSum
  rw [← Fin.sum_univ_eq_sum_range (fun r => ((hitRow (A0 m c) (A1 m c) (8192 * n + r) : ℝ) : EReal)) 8192]
  exact Finset.sum_congr rfl fun r _ => by rw [sqd_blk]; rfl

theorem weights_rows (hfin : ∀ j, ∃ r : ℝ, (A2 m c) j = r) (n : ℕ) (hn : n < 32) :
    weights m c n = ∑ r ∈ Finset.range 8192, ((wReal (A2 m c) (8192 * n + r) : ℝ) : EReal) := by
  have hN : cfg0.N = 32 := N_0
  have h : n < cfg0.N := by omega
  refine (weights_eq m c ⟨n, h⟩).trans ?_
  unfold wSum
  rw [← Fin.sum_univ_eq_sum_range (fun r => ((wReal (A2 m c) (8192 * n + r) : ℝ) : EReal)) 8192]
  exact Finset.sum_congr rfl fun r _ => by rw [blk2_apply]; exact (wRow_real _ hfin _).symm

theorem both_rows (hfin : ∀ j, ∃ r : ℝ, (A2 m c) j = r) (n : ℕ) (hn : n < 32) :
    both m c n = ∑ r ∈ Finset.range 8192,
      ((hitRow (A0 m c) (A1 m c) (8192 * n + r) * wReal (A2 m c) (8192 * n + r) : ℝ) : EReal) := by
  have hN : cfg0.N = 32 := N_0
  have h : n < cfg0.N := by omega
  refine (both_eq m c ⟨n, h⟩).trans ?_
  unfold bothSum
  rw [← Fin.sum_univ_eq_sum_range (fun r => ((hitRow (A0 m c) (A1 m c) (8192 * n + r) * wReal (A2 m c) (8192 * n + r) : ℝ) : EReal)) 8192]
  exact Finset.sum_congr rfl fun r _ => by
    rw [sqd_blk, blk2_apply, ← wRow_real _ hfin, ← EReal.coe_mul]; rfl

/-! ## The three scaled sums -/

theorem total3 : ((Ideal.ofBits .f32 0x00000000#32 + ∑ j, G3 m c j) * Ideal.ofBits .f32 0x3A800000#32)
    = ((∑ n ∈ Finset.range 262144, hitRow (A0 m c) (A1 m c) n : ℝ) : EReal) :=
  tile_total (hitRow (A0 m c) (A1 m c)) (G3 m c) fun i => by
    have hi : (i 0).val < 16 := (i 0).isLt
    exact Finset.sum_congr rfl fun s hs => hits_rows m c _ (by have := Finset.mem_range.mp hs; omega)

theorem total4 (hfin : ∀ j, ∃ r : ℝ, (A2 m c) j = r) : ((Ideal.ofBits .f32 0x00000000#32 + ∑ j, G4 m c j) * Ideal.ofBits .f32 0x3A800000#32)
    = ((∑ n ∈ Finset.range 262144, wReal (A2 m c) n : ℝ) : EReal) :=
  tile_total (wReal (A2 m c)) (G4 m c) fun i => by
    have hi : (i 0).val < 16 := (i 0).isLt
    exact Finset.sum_congr rfl fun s hs => weights_rows m c hfin _ (by have := Finset.mem_range.mp hs; omega)

theorem total5 (hfin : ∀ j, ∃ r : ℝ, (A2 m c) j = r) : ((Ideal.ofBits .f32 0x00000000#32 + ∑ j, G5 m c j) * Ideal.ofBits .f32 0x3A800000#32)
    = ((∑ n ∈ Finset.range 262144, hitRow (A0 m c) (A1 m c) n * wReal (A2 m c) n : ℝ) : EReal) :=
  tile_total (fun n => hitRow (A0 m c) (A1 m c) n * wReal (A2 m c) n) (G5 m c) fun i => by
    have hi : (i 0).val < 16 := (i 0).isLt
    exact Finset.sum_congr rfl fun s hs => both_rows m c hfin _ (by have := Finset.mem_range.mp hs; omega)

/-! ## The host operations after the kernel -/

/-- The host's last operations, on any three (16, 128) arrays: the quotient of the three scaled sums. -/
theorem tail_apply (o3 o4 o5 : FVec Ideal S16x128 .f32) (i : S_.Idx) :
    (Host.divf (F := Ideal) (addf (mulf (Host.reduceAdd (F := Ideal) o5 (constant (F := Ideal) S_ .f32 0x00000000#32) reducesTo_S16x128_S_d0_1 h_S_) (constant (F := Ideal) S_ .f32 0x3A800000#32)) (constant (F := Ideal) S_ .f32 0x358637BD#32))
      (addf (subf (addf (mulf (Host.reduceAdd (F := Ideal) o3 (constant (F := Ideal) S_ .f32 0x00000000#32) reducesTo_S16x128_S_d0_1 h_S_) (constant (F := Ideal) S_ .f32 0x3A800000#32)) (mulf (Host.reduceAdd (F := Ideal) o4 (constant (F := Ideal) S_ .f32 0x00000000#32) reducesTo_S16x128_S_d0_1 h_S_) (constant (F := Ideal) S_ .f32 0x3A800000#32))) (mulf (Host.reduceAdd (F := Ideal) o5 (constant (F := Ideal) S_ .f32 0x00000000#32) reducesTo_S16x128_S_d0_1 h_S_) (constant (F := Ideal) S_ .f32 0x3A800000#32))) (constant (F := Ideal) S_ .f32 0x358637BD#32))) i
    = ratio ((Ideal.ofBits .f32 0x00000000#32 + ∑ j, o3 j) * Ideal.ofBits .f32 0x3A800000#32) ((Ideal.ofBits .f32 0x00000000#32 + ∑ j, o4 j) * Ideal.ofBits .f32 0x3A800000#32) ((Ideal.ofBits .f32 0x00000000#32 + ∑ j, o5 j) * Ideal.ofBits .f32 0x3A800000#32) := by
  have e : ∀ o : FVec Ideal S16x128 .f32, (Host.reduceAdd (F := Ideal) o (constant (F := Ideal) S_ .f32 0x00000000#32) reducesTo_S16x128_S_d0_1 h_S_) i = Ideal.ofBits .f32 0x00000000#32 + ∑ j, o j := fun o => by
    simp only [Host.reduceAdd, Ideal.hostReduceAdd_def]
    exact Ideal.hostReduceAdd_total reducesTo_S16x128_S_d0_1 (fun b => b.elim0) o _ i
  show ratio ((Host.reduceAdd (F := Ideal) o3 (constant (F := Ideal) S_ .f32 0x00000000#32) reducesTo_S16x128_S_d0_1 h_S_) i * Ideal.ofBits .f32 0x3A800000#32) ((Host.reduceAdd (F := Ideal) o4 (constant (F := Ideal) S_ .f32 0x00000000#32) reducesTo_S16x128_S_d0_1 h_S_) i * Ideal.ofBits .f32 0x3A800000#32)
    ((Host.reduceAdd (F := Ideal) o5 (constant (F := Ideal) S_ .f32 0x00000000#32) reducesTo_S16x128_S_d0_1 h_S_) i * Ideal.ofBits .f32 0x3A800000#32) = _
  rw [e o3, e o4, e o5]

set_option maxHeartbeats 2000000 in
/-- The program's result buffer after the run. -/
theorem result (hfin : ∀ j, ∃ r : ℝ, (A2 m c) j = r) :
    Pipeline.afterTail₀ cfgs (dats m) 0 (V0 m) [hostOps1] c main_v11
      = fun _ => answer (A0 m c) (A1 m c) (A2 m c) := by
  unfold Pipeline.afterTail₀
  show StableHlo.after hostOps1 _ (Proc.devRef .tc main_v11) = _
  after_results
  have e3 : Pipeline.withArrays (cfgs 0).spec c (V0 m c) (fun w => (dats m 0 c).arrAt w (cfgs 0).N) (Proc.devRef .tc main_v0_0) = G3 m c :=
    (Pipeline.withArrays_arr spec0 winFacts0.arr_inj c _ _ 3).trans (final3 m c)
  have e4 : Pipeline.withArrays (cfgs 0).spec c (V0 m c) (fun w => (dats m 0 c).arrAt w (cfgs 0).N) (Proc.devRef .tc main_v0_1) = G4 m c :=
    (Pipeline.withArrays_arr spec0 winFacts0.arr_inj c _ _ 4).trans (final4 m c)
  have e5 : Pipeline.withArrays (cfgs 0).spec c (V0 m c) (fun w => (dats m 0 c).arrAt w (cfgs 0).N) (Proc.devRef .tc main_v0_2) = G5 m c :=
    (Pipeline.withArrays_arr spec0 winFacts0.arr_inj c _ _ 5).trans (final5 m c)
  rw [e3, e4, e5]
  funext i
  rw [tail_apply, total3, total4 m c hfin, total5 m c hfin]
  rfl

end Cert.KernelIdeal.Tail

end
-- ==== Proof.Reference.lean ====
/-
  The reference program's result is `answer` of its three arguments.

  The reference forms, row by row, the squared distance (a sum over the 128 columns), its square root, the comparison
  with 5/8 read as 0 or 1, and the product with the row's weight; then three sums over all 262144 rows, each from zero,
  and the quotient. Read at a row index each stage is the corresponding row quantity of `Bridge`; the three sums are
  `col_total`.
-/
import proofs.«174065_j23441931502276_2_alg».proof.Proof.Gen.ReferenceIdeal.Read
import proofs.«174065_j23441931502276_2_alg».proof.Proof.Bridge

noncomputable section

open Idealize.ShloMosaic Idealize.ShloMosaic.ValueIdx

namespace Cert.ReferenceIdeal.RefValue

open Cert.ReferenceIdeal Cert.ReferenceIdeal.Read Cert.Accuracy

variable (x0 x1 : FVec Ideal S262144x128 .f32) (x2 : FVec Ideal S262144x1 .f32)

/-- The row sum of squared differences at row `n` is that row's squared distance. -/
theorem v2_apply (n : Fin 262144) : val_main_v2 (F := Ideal) x0 x1 (ix1 n) = sqRow x0 x1 n.val := by
  rw [val_main_v2_apply]
  show Ideal.ofBits .f32 0x00000000#32 + _ = _
  rw [Ideal.ofBits_zero_f32, zero_add]
  unfold sqRow
  refine Finset.sum_congr rfl fun k _ => ?_
  have e : idx_main_v2 (ix1 n) k = ix2 n k := funext fun a => Fin.ext (by match a with | ⟨0, _⟩ => rfl | ⟨1, _⟩ => rfl)
  have r0 : rowAt x0 n.val k = x0 (ix2 n k) := dif_pos n.isLt
  have r1 : rowAt x1 n.val k = x1 (ix2 n k) := dif_pos n.isLt
  rw [e, r0, r1]
  rfl

/-- The hit column at row `n`. -/
theorem v7_apply (n : Fin 262144) (u : Fin 1) :
    val_main_v7 (F := Ideal) x0 x1 (ix2 n u) = ((hitRow x0 x1 n.val : ℝ) : EReal) := by
  rw [val_main_v7_apply]
  have e : idx_main_v7 (ix2 n u) = ix1 n := funext fun a => Fin.ext (by match a with | ⟨0, _⟩ => rfl)
  rw [e]
  rw [val_main_v6_apply, val_main_v5_apply, val_main_v3_apply, val_main_v4_apply, val_main_cst_0_apply, v2_apply]
  exact hit_ref _ (sqRow_nonneg _ _ _)

/-- A finite weight column at row `n`. -/
theorem w_apply (hfin : ∀ j, ∃ r : ℝ, x2 j = r) (n : Fin 262144) (u : Fin 1) : x2 (ix2 n u) = ((wReal x2 n.val : ℝ) : EReal) := by
  have hu : u = 0 := Subsingleton.elim _ _
  subst hu
  have e : wRow x2 n.val = x2 (ix2 n (0 : Fin 1)) := dif_pos n.isLt
  unfold wReal
  rw [wRow_real x2 hfin, e]

/-- The hit-times-weight column at row `n`. -/
theorem v8_apply (hfin : ∀ j, ∃ r : ℝ, x2 j = r) (n : Fin 262144) (u : Fin 1) :
    val_main_v8 (F := Ideal) x0 x1 x2 (ix2 n u) = ((hitRow x0 x1 n.val * wReal x2 n.val : ℝ) : EReal) := by
  rw [val_main_v8_apply, v7_apply, w_apply x2 hfin, EReal.coe_mul]
  rfl

/-- The reference's result. -/
theorem result_eq (hfin : ∀ j, ∃ r : ℝ, x2 j = r) (i : S_.Idx) :
    val_main_v16 (F := Ideal) x0 x1 x2 i = answer x0 x1 x2 := by
  have hA : val_main_v10 (F := Ideal) x0 x1 i = ((∑ n ∈ Finset.range 262144, hitRow x0 x1 n : ℝ) : EReal) :=
    (val_main_v10_apply x0 x1 i).trans (col_total (hitRow x0 x1) _ (v7_apply x0 x1))
  have hD : val_main_v11 (F := Ideal) x2 i = ((∑ n ∈ Finset.range 262144, wReal x2 n : ℝ) : EReal) :=
    (val_main_v11_apply x2 i).trans (col_total (wReal x2) _ (w_apply x2 hfin))
  have hI : val_main_v9 (F := Ideal) x0 x1 x2 i = ((∑ n ∈ Finset.range 262144, hitRow x0 x1 n * wReal x2 n : ℝ) : EReal) :=
    (val_main_v9_apply x0 x1 x2 i).trans (col_total (fun n => hitRow x0 x1 n * wReal x2 n) _ (v8_apply x0 x1 x2 hfin))
  rw [val_main_v16_apply, val_main_v14_apply, val_main_v15_apply, val_main_v13_apply, val_main_v12_apply, hA, hD, hI]
  rfl

end Cert.ReferenceIdeal.RefValue

end
-- ==== Proof.Finite.lean ====
/-
  The precondition, read back for the weights: every entry of the (262144, 1) weight array is a real number.

  The precondition is the conjunction of three "all entries have absolute value below +∞" tests, one per argument. Its
  third conjunct, at an entry `x` of the weights, says `max x (−x) < +∞`, which fails at both infinities: `x` is real.
  (The other two conjuncts are not needed: a sum of squares is compared the same way by both programs whatever it is.)
-/
import proofs.«174065_j23441931502276_2_alg».proof.Pre_finite_inputs
import Idealize.ShloMosaic.Lib.ReduceAll
import Idealize.ShloMosaic.Lib.ValueIdx
import Idealize.ShloMosaic.PureOps.Ideal.Laws

noncomputable section

open Idealize.ShloMosaic

namespace Cert.Pre_finite_inputs.Decode

open Cert.Pre_finite_inputs

variable [Facts]

instance : Subsingleton S_.Idx := ⟨fun a b => funext fun d => d.elim0⟩

/-- Where the precondition holds, every weight is a real number. -/
theorem weights_real (a0 a1 : FVec Ideal S262144x128 .f32) (a2 : FVec Ideal S262144x1 .f32)
    (h : fn (F := Ideal) a0 a1 a2 = fun _ => 1#1) (j : S262144x1.Idx) : ∃ r : ℝ, a2 j = r := by
  have h0 := congrFun h ValueIdx.ix0
  dsimp only [fn] at h0
  obtain ⟨-, h12⟩ := IntOp.andi_eq_one.mp h0
  have hj := Host.reduce_andi_all _ _ _ _ _ h12 j
  have e : Ideal.cmp .olt (max (a2 j) (-(a2 j))) (Ideal.ofBits .f32 0x7F800000#32) = 1#1 := hj
  rw [show Ideal.ofBits .f32 0x7F800000#32 = (⊤ : EReal) by simp [Ideal.ofBits, Ideal.ieee]] at e
  have hlt : max (a2 j) (-(a2 j)) < (⊤ : EReal) := by
    by_contra hn
    have e' : Ideal.cmp .olt (max (a2 j) (-(a2 j))) (⊤ : EReal) = BitVec.ofBool (decide (max (a2 j) (-(a2 j)) < (⊤ : EReal))) := rfl
    rw [e', decide_eq_false hn] at e
    exact absurd e (by decide)
  generalize a2 j = x at hlt ⊢
  induction x using EReal.rec with
  | bot => simp at hlt
  | top => simp at hlt
  | coe r => exact ⟨r, rfl⟩

end Cert.Pre_finite_inputs.Decode

end
-- ==== Proof.lean ====
/-
  The certificate: a thresholded-distance overlap score, computed by a tiled two-run kernel and by a plain host program.

  For 262144 pairs of rows of width 128 and a weight per row, both programs return
      (I + ε) / ((A + D − I) + ε),
  A the number of rows whose distance exceeds 5/8, D the sum of the weights, I the sum of the weights over those rows
  (`Cert.Accuracy.answer`). The kernel compares the SQUARED distance with 25/64, accumulates A, D and I over two runs of
  16 blocks of 8192 rows into (8, 128) tiles, and the host undoes the tiling by summing each (16, 128) array and scaling by
  1/1024; the reference takes the square root, compares with 5/8, and sums over all rows at once. Over the extended reals
  the two agree: a sum of squares is never negative, so the two comparisons are one; sums re-associate; and the scaled
  tile sums are the plain totals because the totals are real — a hit is 0 or 1, and the weights are finite by the
  precondition (the only use of it).

  The three frames: the two kernel programs' by their generated frame certificates, the reference's by its generated run.
  The idealization rewrote nothing. The value claim: `Tail.result` (kernel side), `RefValue.result_eq` (reference side).
-/
import proofs.«174065_j23441931502276_2_alg».proof.Defs
import proofs.«174065_j23441931502276_2_alg».proof.Proof.Gen.Kernel
import proofs.«174065_j23441931502276_2_alg».proof.Proof.Gen.Kernel.Frame
import proofs.«174065_j23441931502276_2_alg».proof.Proof.Gen.KernelIdeal
import proofs.«174065_j23441931502276_2_alg».proof.Proof.Gen.KernelIdeal.Frame
import proofs.«174065_j23441931502276_2_alg».proof.Proof.Gen.ReferenceIdeal
import proofs.«174065_j23441931502276_2_alg».proof.Proof.Gen.ReferenceIdeal.Run
import proofs.«174065_j23441931502276_2_alg».proof.Proof.Gen.ReferenceIdeal.Read
import proofs.«174065_j23441931502276_2_alg».proof.Proof.Gen.Pre_finite_inputs
import proofs.«174065_j23441931502276_2_alg».proof.Proof.KernelTail
import proofs.«174065_j23441931502276_2_alg».proof.Proof.Reference
import proofs.«174065_j23441931502276_2_alg».proof.Proof.Finite
import Idealize.ShloMosaic.Adequacy
import Idealize.ShloMosaic.Init

noncomputable section

namespace Cert.Proof

open Idealize.ShloMosaic Idealize.ShloMosaic.TcCoe Idealize.SL.Sem Cert.Accuracy

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition every weight the kernel program is given is a real number. -/
theorem weights_real (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j, ∃ r : ℝ, Cert.KernelIdeal.Tail.A2 m c j = r :=
  Cert.Pre_finite_inputs.Decode.weights_real _ _ _ (hpre c)

/-- The kernel program's run, with its result named: the result buffer ends at `answer` of the arguments, which end
    unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v11) = (fun _ => answer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨((h c).2 Cert.KernelIdeal.main_v11 (Pipeline.mem_restRefs_of _ rfl (by decide))).trans
        (Cert.KernelIdeal.Tail.result m c (weights_real m hpre c)),
      ((h c).1 0).trans (((Cert.KernelIdeal.Gen.dats m 0 c).arrAt_in 0 rfl _).trans
        ((Cert.KernelIdeal.Gen.A_eq m c 0).trans (Cert.KernelIdeal.Gen.V_main_arg0 m c))),
      ((h c).1 1).trans (((Cert.KernelIdeal.Gen.dats m 0 c).arrAt_in 1 rfl _).trans
        ((Cert.KernelIdeal.Gen.A_eq m c 1).trans (Cert.KernelIdeal.Gen.V_main_arg1 m c))),
      ((h c).1 2).trans (((Cert.KernelIdeal.Gen.dats m 0 c).arrAt_in 2 rfl _).trans
        ((Cert.KernelIdeal.Gen.A_eq m c 2).trans (Cert.KernelIdeal.Gen.V_main_arg2 m c)))⟩)
    (Cert.KernelIdeal.Gen.run_main m ρ)

/-- From memories that agree on the three arguments, both programs end with `answer` of them. -/
theorem algebraic : Cert.algebraic_KernelIdeal_ReferenceIdeal := by
  intro m ρ m' ρ' hpre hagree
  refine ⟨fun c _ => answer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  funext i
  exact Cert.ReferenceIdeal.RefValue.result_eq _ _ _ (weights_real m hpre c) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
